-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128x512 : Shape := ⟨3, ![2048, 128, 512]⟩
abbrev S_ : Shape := ⟨0, ![]⟩

class Facts : Prop where
  bcast_S_S2048x128x512 : S_.BroadcastsInDim S2048x128x512 (![] : Fin 0 → Fin S2048x128x512.rank)
  reducesTo_S2048x128x512_S_d0_1_2 : S2048x128x512.ReducesTo [0, 1, 2] S_
  h_S_ : 0 < S_.numel

variable [Facts]

def fn {F : FTy → Type} [FloatOps F] (main_arg0 : FVec F S2048x128x512 .f32) : IVec S_ 1 :=
  let main_v0 : FVec F S2048x128x512 .f32 := Host.absf main_arg0
  let main_cst : FVec F S_ .f32 := constant S_ .f32 0x7F800000#32
  let main_v1 : FVec F S2048x128x512 .f32 := broadcastInDim S2048x128x512 ![] bcast_S_S2048x128x512 main_cst
  let main_v2 : IVec S2048x128x512 1 := cmpf .olt main_v0 main_v1
  let main_c : IVec S_ 1 := constantI S_ 1 1#1
  let main_v3 : IVec S_ 1 := (fun x v => Host.reduce IntOp.andi x v reducesTo_S2048x128x512_S_d0_1_2 h_S_) main_v2 main_c
  main_v3
-- ==== Kernel.lean ====
abbrev S2048x128x512 : Shape := ⟨3, ![2048, 128, 512]⟩
abbrev S2048x512 : Shape := ⟨2, ![2048, 512]⟩
abbrev S64x128x512 : Shape := ⟨3, ![64, 128, 512]⟩
abbrev S64x512 : Shape := ⟨2, ![64, 512]⟩
abbrev S64x128 : Shape := ⟨2, ![64, 128]⟩
abbrev S64 : Shape := ⟨1, ![64]⟩
abbrev S64x1 : Shape := ⟨2, ![64, 1]⟩

abbrev nBuf : Space → Nat
  | .hbm => 2
  | .vmem => 4
  | .smem => 0
  | _ => 0

abbrev bufTy : (tb : Table) → Fin (tcTables nBuf tb) → BufTy
  | .hbm, ⟨0, _⟩ => ⟨S2048x128x512, .f32⟩
  | .hbm, ⟨1, _⟩ => ⟨S2048x512, .f32⟩
  | .local _ .vmem, ⟨0, _⟩ => ⟨S64x128x512, .f32⟩
  | .local _ .vmem, ⟨1, _⟩ => ⟨S64x128x512, .f32⟩
  | .local _ .vmem, ⟨2, _⟩ => ⟨S64x512, .f32⟩
  | .local _ .vmem, ⟨3, _⟩ => ⟨S64x512, .f32⟩
  | _, _ => ⟨S2048x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S64x128x512_S64x128x512_0_0_0 : ∀ a, (![0, 0, 0] : Fin 3 → Nat) a + S64x128x512.size a ≤ S64x128x512.size a
  h_S64x128x512 : 0 < S64x128x512.numel
  reduces_S64x128x512_S64x128 : S64x128x512.Reduces [2] S64x128
  natLt_1_32 : 1 < 32
  reduces_S64x128_S64 : S64x128.Reduces [1] S64
  shapeCasts_S64_S64x1 : S64.ShapeCasts S64x1
  reduces_S64x128x512_S64x512 : S64x128x512.Reduces [1] S64x512
  broadcasts_S64x1_S64x512 : S64x1.Broadcasts S64x512
  inb_S64x512_S64x512_0_0 : ∀ a, (![0, 0] : Fin 2 → Nat) a + S64x512.size a ≤ S64x512.size a
  h_S64x512 : 0 < S64x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x512.size a ≤ S2048x128x512.size a
  hwx0_0 : ∀ i : grid0.Coords, EltTy.bits .f32 = 32 ∨ (Rect.block (s := S2048x128x512) S64x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S2048x512.size a
  hwx0_1 : ∀ i : grid0.Coords, EltTy.bits .f32 = 32 ∨ (Rect.block (s := S2048x512) S64x512.size (cc0_transform_1 i) (hinb0_1 i)).WholeWords (EltTy.packing .f32)

variable [Facts₀]

abbrev win0_0 : Pipeline.Window sig grid0 :=
  Pipeline.Window.ofSpec (Memref.whole main_arg0) S64x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x128x512 : Shape := ⟨3, ![2048, 128, 512]⟩
abbrev S_ : Shape := ⟨0, ![]⟩
abbrev S2048x128 : Shape := ⟨2, ![2048, 128]⟩
abbrev S2048 : Shape := ⟨1, ![2048]⟩
abbrev S2048x1 : Shape := ⟨2, ![2048, 1]⟩
abbrev S2048x512 : Shape := ⟨2, ![2048, 512]⟩

abbrev nBuf : Space → Nat
  | .hbm => 15
  | .vmem => 0
  | .smem => 0
  | _ => 0

abbrev bufTy : (tb : Table) → Fin (tcTables nBuf tb) → BufTy
  | .hbm, ⟨0, _⟩ => ⟨S2048x128x512, .f32⟩
  | .hbm, ⟨1, _⟩ => ⟨S_, .f32⟩
  | .hbm, ⟨2, _⟩ => ⟨S2048x128x512, .f32⟩
  | .hbm, ⟨3, _⟩ => ⟨S2048x128x512, .i1⟩
  | .hbm, ⟨4, _⟩ => ⟨S_, .i1⟩
  | .hbm, ⟨5, _⟩ => ⟨S2048x128, .i1⟩
  | .hbm, ⟨6, _⟩ => ⟨S2048x128, .i32⟩
  | .hbm, ⟨7, _⟩ => ⟨S_, .i32⟩
  | .hbm, ⟨8, _⟩ => ⟨S2048, .i32⟩
  | .hbm, ⟨9, _⟩ => ⟨S2048x1, .i32⟩
  | .hbm, ⟨10, _⟩ => ⟨S2048x1, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | _, _ => ⟨S2048x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S2048x128x512 : S_.BroadcastsInDim S2048x128x512 (![] : Fin 0 → Fin S2048x128x512.rank)
  reducesTo_S2048x128x512_S2048x128_d2 : S2048x128x512.ReducesTo [2] S2048x128
  h_S_ : 0 < S_.numel
  natLt_1_32 : 1 < 32
  reducesTo_S2048x128_S2048_d1 : S2048x128.ReducesTo [1] S2048
  bcast_S2048_S2048x1_0 : S2048.BroadcastsInDim S2048x1 (![0] : Fin 1 → Fin S2048x1.rank)
  reducesTo_S2048x128x512_S2048x512_d1 : S2048x128x512.ReducesTo [1] S2048x512
  bcast_S2048x1_S2048x512_0_1 : S2048x1.BroadcastsInDim S2048x512 (![0, 1] : Fin 2 → Fin S2048x512.rank)

variable [Facts₀]

class Facts : Prop extends Facts₀ where

variable [Facts]
-- ==== Proof.LibLiveMean.lean ====
/-
  The mean of a slab's columns over its live rows, on the extended reals.

  A slab is a `C × W` array `s` of extended reals; row `k` is live when it holds a nonzero entry. The quantity
  studied is, per column `f`, the column's sum over ALL rows divided by the NUMBER of live rows:

      liveMean s f = (∑ k, s k f) / #{k | ∃ g, s k g ≠ 0}.

  Two spellings of the divisor meet here. One marks a row by the maximum, over the row, of the 0/1 indicator of
  "entry ≠ 0" (the maximum taken from -∞), tests that maximum against 0, widens the one-bit answer to a word,
  converts the word to a real, and adds the reals over the rows. The other marks a row by the disjunction of the bits
  "entry ≠ 0", widens each mark to a 32-bit word, adds the WORDS over the rows, and converts the one total. A row's
  two marks are the same bit (both say: some entry is nonzero), a sum of 0/1 reals is the count of the ones, and a
  sum of 0/1 words is that count as a word, which reads back as the count while the number of rows is below 2³¹.
  No finiteness is used: the column sums are left as they are, and only `0 + x = x` is asked of them.
-/
import Idealize.ShloMosaic.PureOps.Ideal.Laws
import Idealize.ShloMosaic.Lib.IndicatorCount
import Idealize.ShloMosaic.Lib.ValueIdx

noncomputable section

namespace Cert.LiveMean

open Idealize.ShloMosaic Idealize.ShloMosaic.ValueIdx

/-! ## The three f32 patterns that occur -/

theorem one_val : Ideal.ofBits .f32 0x3F800000#32 = 1 := by
  simp [Ideal.ofBits, Ideal.ieee, -EReal.coe_mul]; norm_num

theorem negInf_val : Ideal.ofBits .f32 0xFF800000#32 = ⊥ := by simp [Ideal.ofBits, Ideal.ieee]

/-! ## The specification -/

variable {C W : ℕ}

open Classical in
/-- The number of rows of the slab that hold a nonzero entry. -/
def liveCount (s : Fin C → Fin W → EReal) : ℕ := (Finset.univ.filter fun k : Fin C => ∃ g, s k g ≠ 0).card

/-- Column `f`'s sum over every row, divided by the number of live rows. -/
def liveMean (s : Fin C → Fin W → EReal) (f : Fin W) : EReal :=
  Ideal.div (∑ k : Fin C, s k f) (((liveCount s : ℕ) : ℝ) : EReal)

/-- The same over a batch of slabs: entry `(b, f)` of the result is slab `b`'s mean at column `f`. -/
def meanArr {B : ℕ} (x : (⟨3, ![B, C, W]⟩ : Shape).Idx → EReal) : (⟨2, ![B, W]⟩ : Shape).Idx → EReal :=
  fun i => liveMean (fun k g => x (ix3 (⟨(i 0).val, idx2_lt0 i⟩ : Fin B) k g)) (⟨(i 1).val, idx2_lt1 i⟩ : Fin W)

theorem meanArr_apply {B : ℕ} (x : (⟨3, ![B, C, W]⟩ : Shape).Idx → EReal) (b : Fin B) (f : Fin W) :
    meanArr x (ix2 b f) = liveMean (fun k g => x (ix3 b k g)) f := rfl

/-! ## A row's mark, spelt twice -/

/-- The mark taken through a maximum: is the largest of the row's indicators (1 at a nonzero entry, 0 at a zero one,
    the maximum started at -∞) above zero? -/
def maxMark (v : Fin W → EReal) : BitVec 1 :=
  Ideal.cmp .ogt
    ((Finset.univ : Finset (Fin W)).fold max (Ideal.ofBits .f32 0xFF800000#32) (fun g =>
      Scalar.select (Ideal.cmp .one (v g) (Ideal.ofBits .f32 0x00000000#32)) (Ideal.ofBits .f32 0x3F800000#32)
        (Ideal.ofBits .f32 0x00000000#32)))
    (Ideal.ofBits .f32 0x00000000#32)

/-- The mark taken through a disjunction of the bits "entry ≠ 0", started at false. -/
def orMark (v : Fin W → EReal) : BitVec 1 :=
  (Finset.univ : Finset (Fin W)).fold IntOp.ori 0#1 (fun g => Ideal.cmp .une (v g) (Ideal.ofBits .f32 0x00000000#32))

/-- The indicator of one entry is above zero exactly when the entry is not zero. -/
theorem indicator_pos_iff (a : EReal) :
    0 < Scalar.select (Ideal.cmp .one a 0) (1 : EReal) 0 ↔ a ≠ 0 := by
  by_cases h : a = 0
  · simp [h, Scalar.select, Ideal.cmp]
  · simp [h, Scalar.select, Ideal.cmp]

/-- The ordered "greater than" answers one exactly when its left operand is the larger. -/
theorem cmp_ogt_eq_one_iff (a b : EReal) : Ideal.cmp .ogt a b = 1#1 ↔ b < a := by
  by_cases h : b < a <;> simp [Ideal.cmp, h]

theorem maxMark_iff (v : Fin W → EReal) : maxMark v = 1#1 ↔ ∃ g, v g ≠ 0 := by
  unfold maxMark
  rw [negInf_val, one_val, Ideal.ofBits_zero_f32]
  have key : (0 < (Finset.univ : Finset (Fin W)).fold max (⊥ : EReal) (fun g =>
      Scalar.select (Ideal.cmp .one (v g) 0) (1 : EReal) 0)) ↔ ∃ g, v g ≠ 0 := by
    rw [Finset.lt_fold_max]
    constructor
    · rintro (h | ⟨g, -, hg⟩)
      · exact absurd h (not_lt.mpr bot_le)
      · exact ⟨g, (indicator_pos_iff _).mp hg⟩
    · rintro ⟨g, hg⟩
      exact Or.inr ⟨g, Finset.mem_univ _, (indicator_pos_iff _).mpr hg⟩
  rw [cmp_ogt_eq_one_iff]
  exact key

/-- On one-bit words a disjunction is one exactly when one of the two is. -/
theorem ori_eq_one_iff : ∀ x y : BitVec 1, IntOp.ori x y = 1#1 ↔ x = 1#1 ∨ y = 1#1 := by decide

theorem fold_ori_eq_one_iff {ι : Type} (S : Finset ι) (p : ι → BitVec 1) :
    S.fold IntOp.ori 0#1 p = 1#1 ↔ ∃ g ∈ S, p g = 1#1 := by
  classical
  induction S using Finset.induction_on with
  | empty => simp
  | insert a S ha ih =>
    rw [Finset.fold_insert ha, ori_eq_one_iff, ih]
    constructor
    · rintro (h | ⟨g, hg, h⟩)
      · exact ⟨a, Finset.mem_insert_self _ _, h⟩
      · exact ⟨g, Finset.mem_insert_of_mem hg, h⟩
    · rintro ⟨g, hg, h⟩
      rcases Finset.mem_insert.mp hg with rfl | hg
      · exact Or.inl h
      · exact Or.inr ⟨g, hg, h⟩

theorem orMark_iff (v : Fin W → EReal) : orMark v = 1#1 ↔ ∃ g, v g ≠ 0 := by
  unfold orMark
  rw [fold_ori_eq_one_iff, Ideal.ofBits_zero_f32]
  constructor
  · rintro ⟨g, -, hg⟩
    refine ⟨g, fun h => ?_⟩
    simp [Ideal.cmp, h] at hg
  · rintro ⟨g, hg⟩
    exact ⟨g, Finset.mem_univ _, by simp [Ideal.cmp, hg]⟩

/-! ## Counting the marks -/

/-- A real finite sum read in the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A one-bit word widened to 32 bits and read signed is 1 or 0. -/
theorem toInt_widen : ∀ b : BitVec 1, (b.setWidth 32).toInt = if b = 1#1 then 1 else 0 := by decide

/-- Marks widened, converted one by one and added as reals: the number of ones. -/
theorem sum_marks (p : Fin C → BitVec 1) :
    ∑ k : Fin C, ((((p k).setWidth 32).toInt : ℝ) : EReal) = (((Finset.univ.filter fun k => p k = 1#1).card : ℝ) : EReal) := by
  rw [Finset.natCast_card_filter, coe_sum]
  refine Finset.sum_congr rfl fun k _ => ?_
  rw [toInt_widen]
  by_cases h : p k = 1#1 <;> simp [h]

/-- Marks widened, added as 32-bit words and the total converted: the same number, while there are fewer than 2³¹ rows. -/
theorem marks_sum (hC : C < 2 ^ 31) (p : Fin C → BitVec 1) :
    ((((Finset.univ : Finset (Fin C)).fold IntOp.addi 0#32 (fun k => (p k).setWidth 32)).toInt : ℝ) : EReal)
      = (((Finset.univ.filter fun k => p k = 1#1).card : ℝ) : EReal) := by
  rw [IndicatorCount.fold_addi_setWidth_eq_card]
  have hle : (Finset.univ.filter fun k => p k = 1#1).card ≤ C := by
    simpa using Finset.card_filter_le (Finset.univ : Finset (Fin C)) (fun k => p k = 1#1)
  generalize (Finset.univ.filter fun k => p k = 1#1).card = n at hle ⊢
  have e : (BitVec.ofNat 32 n).toInt = (n : ℤ) := by
    rw [BitVec.toInt_eq_toNat_cond, BitVec.toNat_ofNat]
    have : n % 2 ^ 32 = n := Nat.mod_eq_of_lt (by omega)
    rw [this, if_pos (by omega)]
  rw [e]; norm_cast

/-! ## The two spellings are the specification -/

open Classical in
theorem liveCount_eq (s : Fin C → Fin W → EReal) (mark : (Fin W → EReal) → BitVec 1)
    (hm : ∀ v, mark v = 1#1 ↔ ∃ g, v g ≠ 0) :
    (Finset.univ.filter fun k : Fin C => mark (s k) = 1#1).card = liveCount s := by
  unfold liveCount
  exact congrArg Finset.card (Finset.filter_congr fun k _ => hm (s k))

/-- Marks by maximum, converted and then added. -/
theorem max_form (s : Fin C → Fin W → EReal) (f : Fin W) :
    Ideal.div (∑ k : Fin C, s k f) (∑ k : Fin C, ((((maxMark (s k)).setWidth 32).toInt : ℝ) : EReal)) = liveMean s f := by
  unfold liveMean
  rw [sum_marks (fun k => maxMark (s k)), liveCount_eq s maxMark maxMark_iff]

/-- Marks by disjunction, added as words and then converted; the column's sum started from the zero pattern. -/
theorem or_form (hC : C < 2 ^ 31) (s : Fin C → Fin W → EReal) (f : Fin W) :
    Ideal.div (Ideal.ofBits .f32 0x00000000#32 + ∑ k : Fin C, s k f)
        ((((Finset.univ : Finset (Fin C)).fold IntOp.addi 0#32 (fun k => (orMark (s k)).setWidth 32)).toInt : ℝ) : EReal)
      = liveMean s f := by
  unfold liveMean
  rw [marks_sum hC (fun k => orMark (s k)), liveCount_eq s orMark orMark_iff, Ideal.ofBits_zero_f32, zero_add]

end Cert.LiveMean

end
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.KernelBlock.lean ====
/-
  One block of the kernel: 64 slabs of 128 rows by 512 columns, and what the body stores for them.

  The body's stored value is, at entry `(r, f)` of the 64 × 512 output block, slab `r`'s column sum at `f` over the
  128 rows divided by the number of slab `r`'s rows that hold a nonzero entry. The divisor is computed by marking
  each row through a maximum over its 512 indicators, converting each mark to a real and adding the 128 reals; the
  column of 64 counts is then cast to a 64 × 1 column and laid along the 512 columns. Each reduction is read at an
  index as a sum (or a fold of `max`) over the reduced axis's coordinates, and the rest is pointwise.
-/
import proofs.«172747_j90125593739319_1_alg».proof.Proof.Gen.KernelIdeal.Skeleton
import proofs.«172747_j90125593739319_1_alg».proof.Proof.LibLiveMean
import proofs.«172747_j90125593739319_1_alg».proof.Proof.LibColumns
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.LiveMean

/-! ## The reduced axis's coordinate put back into an index -/

/-- Row `(r, k)` with column `g` inserted on the last axis. -/
theorem lift_last (r : Fin 64) (k : Fin 128) (g : Fin 512) :
    Gen.reduces_S64x128x512_S64x128.lift (ix2 r k) g = ix3 r k g :=
  funext fun a => Fin.ext (by match a with | ⟨0, _⟩ => rfl | ⟨1, _⟩ => rfl | ⟨2, _⟩ => rfl)

/-- Entry `(r, f)` with row `k` inserted on the middle axis. -/
theorem lift_mid (r : Fin 64) (f : Fin 512) (k : Fin 128) :
    Gen.reduces_S64x128x512_S64x512.lift (ix2 r f) k = ix3 r k f :=
  funext fun a => Fin.ext (by match a with | ⟨0, _⟩ => rfl | ⟨1, _⟩ => rfl | ⟨2, _⟩ => rfl)

/-- Slab `r` with row `k` inserted. -/
theorem lift_vec (r : Fin 64) (k : Fin 128) :
    Gen.reduces_S64x128_S64.lift (ix1 r) k = ix2 r k :=
  funext fun a => Fin.ext (by match a with | ⟨0, _⟩ => rfl | ⟨1, _⟩ => rfl)

/-! ## The body's intermediate arrays, named -/

/-- 1 where the entry is nonzero, 0 where it is zero. -/
def ind (P0 : Vec Ideal S64x128x512 .f32) : FVec Ideal S64x128x512 .f32 :=
  select (cmpf .one P0 (broadcast S64x128x512 (Scalar.ofBits (F := Ideal) .f32 0x00000000#32)))
    (broadcast S64x128x512 (Scalar.ofBits (F := Ideal) .f32 0x3F800000#32))
    (broadcast S64x128x512 (Scalar.ofBits (F := Ideal) .f32 0x00000000#32))

/-- Each row's largest indicator, the maximum started at -∞. -/
def rowMax (P0 : Vec Ideal S64x128x512 .f32) : FVec Ideal S64x128 .f32 :=
  multiReduction .maximumf [2] S64x128 (ind P0) 0xFF800000#32 Gen.reduces_S64x128x512_S64x128 (.inl rfl) rfl

/-- Each row's mark as a real: 1 for a live row, 0 for a zero one. -/
def marks (P0 : Vec Ideal S64x128x512 .f32) : FVec Ideal S64x128 .f32 :=
  sitofp .f32 (extui 32 (cmpf .ogt (rowMax P0) (broadcast S64x128 (Scalar.ofBits (F := Ideal) .f32 0x00000000#32))) Gen.natLt_1_32)

/-- Each slab's number of live rows. -/
def cnt (P0 : Vec Ideal S64x128x512 .f32) : FVec Ideal S64 .f32 :=
  multiReduction .add [1] S64 (marks P0) 0x00000000#32 Gen.reduces_S64x128_S64 (.inl rfl) rfl

/-- Each slab's column sums over its rows. -/
def colSum (P0 : Vec Ideal S64x128x512 .f32) : FVec Ideal S64x512 .f32 :=
  multiReduction .add [1] S64x512 P0 0x00000000#32 Gen.reduces_S64x128x512_S64x512 (.inl rfl) rfl

/-- The stored value is the column sums divided by the counts laid along the columns. -/
theorem pay_eq (P0 : Vec Ideal S64x128x512 .f32) :
    k0_pay1 (F := Ideal) P0
      = divf (colSum P0) (broadcastTo S64x512 (shapeCast S64x1 (cnt P0) Gen.shapeCasts_S64_S64x1) Gen.broadcasts_S64x1_S64x512) := rfl

/-! ## Each of them at an index -/

theorem colSum_apply (P0 : Vec Ideal S64x128x512 .f32) (r : Fin 64) (f : Fin 512) :
    colSum P0 (ix2 r f) = ∑ k : Fin 128, P0 (ix3 r k f) :=
  (Ideal.multiReduction_add_single P0 0x00000000#32 Gen.reduces_S64x128x512_S64x512 (.inl rfl) rfl (ix2 r f)).trans
    (Finset.sum_congr rfl fun k _ => congrArg P0 (lift_mid r f k))

theorem rowMax_apply (P0 : Vec Ideal S64x128x512 .f32) (r : Fin 64) (k : Fin 128) :
    rowMax P0 (ix2 r k) = (Finset.univ : Finset (Fin 512)).fold max (Ideal.ofBits .f32 0xFF800000#32) (fun g =>
      Scalar.select (Ideal.cmp .one (P0 (ix3 r k g)) (Ideal.ofBits .f32 0x00000000#32)) (Ideal.ofBits .f32 0x3F800000#32)
        (Ideal.ofBits .f32 0x00000000#32)) :=
  (Ideal.multiReduction_maximumf_single (ind P0) 0xFF800000#32 Gen.reduces_S64x128x512_S64x128 (.inl rfl) rfl (ix2 r k)).trans
    (congrArg (fun h => (Finset.univ : Finset (Fin 512)).fold max (Ideal.ofBits .f32 0xFF800000#32) h)
      (funext fun g => (congrArg (ind P0) (lift_last r k g)).trans rfl))

/-- A mark as a real, from the maxima: the test against zero, widened and converted. -/
theorem mark_at (v : FVec Ideal S64x128 .f32) (r : Fin 64) (k : Fin 128) :
    (sitofp .f32 (extui 32 (cmpf .ogt v (broadcast S64x128 (Scalar.ofBits (F := Ideal) .f32 0x00000000#32))) Gen.natLt_1_32)
        : FVec Ideal S64x128 .f32) (ix2 r k)
      = (((((Ideal.cmp .ogt (v (ix2 r k)) (Ideal.ofBits .f32 0x00000000#32)).setWidth 32).toInt : ℤ) : ℝ) : EReal) := rfl

theorem marks_apply (P0 : Vec Ideal S64x128x512 .f32) (r : Fin 64) (k : Fin 128) :
    marks P0 (ix2 r k) = ((((maxMark (fun g => P0 (ix3 r k g))).setWidth 32).toInt : ℝ) : EReal) :=
  (mark_at (rowMax P0) r k).trans (by rw [rowMax_apply]; rfl)

theorem cnt_apply (P0 : Vec Ideal S64x128x512 .f32) (r : Fin 64) :
    cnt P0 (ix1 r) = ∑ k : Fin 128, ((((maxMark (fun g => P0 (ix3 r k g))).setWidth 32).toInt : ℝ) : EReal) :=
  (Ideal.multiReduction_add_single (marks P0) 0x00000000#32 Gen.reduces_S64x128_S64 (.inl rfl) rfl (ix1 r)).trans
    (Finset.sum_congr rfl fun k _ => (congrArg (marks P0) (lift_vec r k)).trans (marks_apply P0 r k))

/-- THE BLOCK: entry `(r, f)` of what the body stores is slab `r`'s mean over its live rows at column `f`. -/
theorem pay_apply (P0 : Vec Ideal S64x128x512 .f32) (r : Fin 64) (f : Fin 512) :
    k0_pay1 (F := Ideal) P0 (ix2 r f) = liveMean (fun k g => P0 (ix3 r k g)) f := by
  rw [pay_eq]
  refine Eq.trans ?_ (max_form (fun k g => P0 (ix3 r k g)) f)
  refine congrArg₂ Ideal.div (colSum_apply P0 r f) ?_
  refine (Cert.Columns.broadcastTo_a1_ab_apply _ _ r f).trans ?_
  refine (Cert.Columns.shapeCast_a_a1_apply _ _ r 0).trans ?_
  exact cnt_apply P0 r

end Cert.KernelIdeal.Block

end
-- ==== Proof.KernelArray.lean ====
/-
  From the kernel's blocks to its whole result array.

  The grid has 32 points; point `t` reads slabs `64 t … 64 t + 63` of the argument (all 128 rows and 512 columns of
  each) and writes rows `64 t … 64 t + 63` of the result (all 512 columns). What it writes is, entry by entry, the
  batch of means of the whole argument read through that block of rows: slab `r` of the block is slab `64 t + r` of
  the argument. The 32 blocks of rows cover the 2048 rows (row `i` lies in block `i / 64`), so the result array ends
  holding the batch of means of the argument.
-/
import proofs.«172747_j90125593739319_1_alg».proof.Proof.Gen.KernelIdeal.Frame
import proofs.«172747_j90125593739319_1_alg».proof.Proof.KernelBlock
import Idealize.ShloMosaic.Lib.Pipeline.Value

noncomputable section

namespace Cert.KernelIdeal.Whole

open Cert.KernelIdeal Cert.KernelIdeal.Gen Idealize.ShloMosaic Idealize.ShloMosaic.TcCoe Idealize.SL.Sem
  Idealize.ShloMosaic.ValueIdx Cert.LiveMean
open Idealize.ShloMosaic.Pipeline (Dat)

variable (m : (ℓ : Loc nD τ sig) → Buf (Elt Ideal) ℓ) (ρ : Dev nD → PrngReg)

/-- The batch of means of a 2048 × 128 × 512 array. -/
abbrev G (x : S2048x128x512.Idx → Elt Ideal .f32) : S2048x512.Idx → Elt Ideal .f32 :=
  meanArr (B := 2048) (C := 128) (W := 512) x

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices at point `t`: block `t` of slabs in, block `t` of rows out, every other axis whole. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0 :=
  (by decide +kernel : ∀ t : Fin grid0.N, _)

/-- If the 64 slabs `P0` are slabs `64 q … 64 q + 63` of `x`, entry `j` of what the body stores for them is entry `i` of
    the batch of means of `x`, where `i` is `j` moved down `64 q` rows. -/
theorem block_entry (x : S2048x128x512.Idx → Elt Ideal .f32) (P0 : Vec Ideal S64x128x512 .f32) (q : ℕ)
    (hP : ∀ (r : Fin 64) (k : Fin 128) (g : Fin 512) (b : Fin 2048), b.val = q * 64 + r.val → P0 (ix3 r k g) = x (ix3 b k g))
    (j : S64x512.Idx) (i : S2048x512.Idx) (hi0 : (i 0).val = q * 64 + (j 0).val) (hi1 : (i 1).val = (j 1).val) :
    k0_pay1 (F := Ideal) P0 j = G x i := by
  obtain ⟨r, f, rfl⟩ : ∃ (r : Fin 64) (f : Fin 512), j = ix2 r f := ⟨j 0, j 1, eq_ix2 j⟩
  obtain ⟨b, f', rfl⟩ : ∃ (b : Fin 2048) (f' : Fin 512), i = ix2 b f' := ⟨i 0, i 1, eq_ix2 i⟩
  have hb : b.val = q * 64 + r.val := hi0
  obtain rfl : f' = f := Fin.ext hi1
  rw [Block.pay_apply]
  show _ = liveMean (fun k g => x (ix3 b k g)) f'
  exact congrArg (fun s => liveMean s f') (funext fun k => funext fun g => hP r k g b hb)

/-- WHAT POINT `t` WRITES BACK is block `t` of the batch of means of the argument array. -/
theorem flushed_eq (c : Dev nD) (t : Fin cfg0.N) :
    (dats m 0 c).flushed 1 t = ((cfg0.win 1).blk t).view.read (Elt Ideal) (G (V m c main_arg0)) := by
  show (cfg0.win 1).cut (grid0.coords t) ((dats m 0 c).after 1 t) = _
  rw [after0_1]
  unfold out0_1
  rw [View.canon_unit_zero hz2]
  simp only [View.ld_unit_zero (S := S64x128x512) hz3]
  obtain ⟨e0, e1, e2, e3, e4⟩ := idx_facts t
  funext j
  show k0_pay1 (iblk m c 0 t) j = G (V m c main_arg0) (((cfg0.win 1).blk t).view.emb j)
  refine block_entry (V m c main_arg0) (iblk m c 0 t) t.val ?_ j (((cfg0.win 1).blk t).view.emb j) ?_ ?_
  · intro r k g b hb
    show V m c main_arg0 (((cfg0.win 0).blk t).view.emb (ix3 r k g)) = V m c main_arg0 (ix3 b k g)
    refine congrArg (V m c main_arg0) (funext fun a => Fin.ext ?_)
    match a with
    | ⟨0, _⟩ => show win0_0.index t (0 : Fin 3) * 64 + 1 * r.val = b.val; omega
    | ⟨1, _⟩ => show win0_0.index t (1 : Fin 3) * 128 + 1 * k.val = k.val; omega
    | ⟨2, _⟩ => show win0_0.index t (2 : Fin 3) * 512 + 1 * g.val = g.val; omega
  · show win0_1.index t (0 : Fin 2) * 64 + 1 * (j 0).val = t.val * 64 + (j 0).val; omega
  · show win0_1.index t (1 : Fin 2) * 512 + 1 * (j 1).val = (j 1).val; omega

/-- An index of the result is in point `t`'s block iff each coordinate is in the block's range on its axis. -/
theorem mem_blk (t : Fin cfg0.N) (i : S2048x512.Idx) :
    i ∈ ((cfg0.win 1).blk t).view.set ↔ ∀ a : Fin 2, win0_1.index t a * S64x512.size a ≤ (i a).val ∧ (i a).val < win0_1.index t a * S64x512.size a + S64x512.size a := by
  show i ∈ ((View.whole main_v0).slice (win0_1.rect t)).set ↔ _
  rw [View.set_slice_whole, Rect.mem_set_unit]
  exact Iff.rfl

/-- Every index of the result is in the block of the point numbered by its row divided by 64. -/
theorem cover (i : S2048x512.Idx) :
    ∃ t : Fin cfg0.N, (cfg0.win 1).flush t = true ∧ i ∈ ((cfg0.win 1).blk t).view.set := by
  have hi0 : (i 0).val < 2048 := (i 0).isLt
  have hi1 : (i 1).val < 512 := (i 1).isLt
  have hN : grid0.N = 32 := N_0
  have ht : (i 0).val / 64 < cfg0.N := by show (i 0).val / 64 < grid0.N; rw [hN]; omega
  obtain ⟨-, -, -, e3, e4⟩ := idx_facts ⟨(i 0).val / 64, ht⟩
  have e3' : win0_1.index ⟨(i 0).val / 64, ht⟩ (0 : Fin 2) = (i 0).val / 64 := e3
  refine ⟨⟨(i 0).val / 64, ht⟩, flush0_1 _, ?_⟩
  rw [mem_blk]
  intro a
  match a with
  | ⟨0, _⟩ =>
    show win0_1.index ⟨(i 0).val / 64, ht⟩ (0 : Fin 2) * 64 ≤ (i 0).val ∧ (i 0).val < win0_1.index ⟨(i 0).val / 64, ht⟩ (0 : Fin 2) * 64 + 64
    rw [e3']; omega
  | ⟨1, _⟩ =>
    show win0_1.index ⟨(i 0).val / 64, ht⟩ (1 : Fin 2) * 512 ≤ (i 1).val ∧ (i 1).val < win0_1.index ⟨(i 0).val / 64, ht⟩ (1 : Fin 2) * 512 + 512
    rw [e4]; omega

/-- THE RESULT ARRAY after the run: the batch of means of the argument as launched. -/
theorem final (c : Dev nD) : (dats m 0 c).arrAt 1 cfg0.N = G (m ((c : Thread nD τ).loc main_arg0)) :=
  (dats m 0 c).arrAt_eq_of_cover 1 (G (V m c main_arg0)) (fun t _ => flushed_eq m c t) cover

/-- The kernel's run: every weakly fair execution terminates with the result array at the batch of means of the
    argument and the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.Whole

end
-- ==== Proof.RefEntry.lean ====
/-
  The reference, entry by entry.

  The reference marks a row by the disjunction, over its 512 entries, of the bits "entry ≠ 0"; widens each of a slab's
  128 marks to a 32-bit word and adds the words; lays the 2048 totals out as a 2048 × 1 column, converts the column
  to reals and lays it along the 512 columns; and divides each slab's column sums (started from the zero pattern) by
  it. Read at entry `(b, f)`, that is slab `b`'s mean over its live rows at column `f`, in the spelling that adds the
  marks as words before converting.
-/
import proofs.«172747_j90125593739319_1_alg».proof.Proof.Gen.ReferenceIdeal.Read
import proofs.«172747_j90125593739319_1_alg».proof.Proof.LibLiveMean
import Idealize.ShloMosaic.Lib.ValueIdx
import Idealize.ShloMosaic.PureOps.Reduce

noncomputable section

namespace Cert.ReferenceIdeal.Entry

open Cert.ReferenceIdeal Cert.ReferenceIdeal.Gen Cert.ReferenceIdeal.Read Idealize.ShloMosaic Idealize.ShloMosaic.ValueIdx
  Cert.LiveMean

/-- The two one-axis reductions' shape facts in the form that names the inserted coordinate. -/
theorem red_last : S2048x128x512.Reduces [2] S2048x128 := by decide
theorem red_rows : S2048x128.Reduces [1] S2048 := by decide

theorem lift_last (b : Fin 2048) (k : Fin 128) (g : Fin 512) : red_last.lift (ix2 b k) g = ix3 b k g :=
  funext fun a => Fin.ext (by match a with | ⟨0, _⟩ => rfl | ⟨1, _⟩ => rfl | ⟨2, _⟩ => rfl)

theorem lift_rows (b : Fin 2048) (k : Fin 128) : red_rows.lift (ix1 b) k = ix2 b k :=
  funext fun a => Fin.ext (by match a with | ⟨0, _⟩ => rfl | ⟨1, _⟩ => rfl)

variable (x : (⟨S2048x128x512, .f32⟩ : BufTy).Contents (Elt Ideal))

/-- The bit "entry ≠ 0". -/
theorem v1_entry (b : Fin 2048) (k : Fin 128) (g : Fin 512) :
    val_main_v1 (F := Ideal) x (ix3 b k g) = Ideal.cmp .une (x (ix3 b k g)) (Ideal.ofBits .f32 0x00000000#32) := by
  rw [val_main_v1_apply, val_main_v0_apply]; rfl

/-- A row's mark: the disjunction of its bits. -/
theorem v2_entry (b : Fin 2048) (k : Fin 128) :
    val_main_v2 (F := Ideal) x (ix2 b k) = orMark (fun g => x (ix3 b k g)) := by
  unfold val_main_v2
  refine (Host.reduce_eq_fold_single IntOp.ori _ _ Gen.reducesTo_S2048x128x512_S2048x128_d2 red_last Gen.h_S_ (ix2 b k)).trans ?_
  unfold orMark
  exact congrArg (fun h => (Finset.univ : Finset (Fin 512)).fold IntOp.ori 0#1 h) (funext fun g =>
    (congrArg (val_main_v1 (F := Ideal) x) (lift_last b k g)).trans (v1_entry x b k g))

/-- A slab's marks, widened and added as words. -/
theorem v4_entry (b : Fin 2048) :
    val_main_v4 (F := Ideal) x (ix1 b)
      = (Finset.univ : Finset (Fin 128)).fold IntOp.addi 0#32 (fun k => (orMark (fun g => x (ix3 b k g))).setWidth 32) := by
  unfold val_main_v4
  refine (Host.reduce_eq_fold_single IntOp.addi _ _ Gen.reducesTo_S2048x128_S2048_d1 red_rows Gen.h_S_ (ix1 b)).trans ?_
  exact congrArg (fun h => (Finset.univ : Finset (Fin 128)).fold IntOp.addi 0#32 h) (funext fun k =>
    (congrArg (val_main_v3 (F := Ideal) x) (lift_rows b k)).trans
      ((val_main_v3_apply x (ix2 b k)).trans (congrArg (BitVec.setWidth 32) (v2_entry x b k))))

/-- THE REFERENCE: entry `(b, f)` of its result is slab `b`'s mean over its live rows at column `f`. -/
theorem result_entry (b : Fin 2048) (f : Fin 512) :
    val_main_v9 (F := Ideal) x (ix2 b f) = liveMean (fun k g => x (ix3 b k g)) f := by
  refine Eq.trans ?_ (or_form (by norm_num) (fun k g => x (ix3 b k g)) f)
  rw [val_main_v9_apply, val_main_v7_apply, val_main_v8_apply, val_main_v6_apply, val_main_v5_apply]
  have e5 : idx_main_v5 (idx_main_v8 (ix2 b f)) = ix1 b := funext fun a => by match a with | ⟨0, _⟩ => rfl
  rw [e5, v4_entry]
  refine congrArg₂ Ideal.div (congrArg₂ (· + ·) rfl (Finset.sum_congr rfl fun k _ => congrArg x ?_)) rfl
  exact funext fun a => Fin.ext (by match a with | ⟨0, _⟩ => rfl | ⟨1, _⟩ => rfl | ⟨2, _⟩ => rfl)

/-- So the reference's result is the batch of means. -/
theorem result_eq : val_main_v9 (F := Ideal) x = meanArr (B := 2048) (C := 128) (W := 512) x := by
  funext i
  obtain ⟨b, f, rfl⟩ : ∃ (b : Fin 2048) (f : Fin 512), i = ix2 b f := ⟨i 0, i 1, eq_ix2 i⟩
  rw [result_entry, meanArr_apply]

end Cert.ReferenceIdeal.Entry

end
-- ==== Proof.lean ====
/-
  Mean pooling over the live rows of each slab: the kernel against its reference, on the extended reals.

  The argument is a batch of 2048 slabs, each of 128 rows by 512 columns. For every slab both programs compute, per
  column, the sum of the column over ALL 128 rows divided by the NUMBER of rows that hold a nonzero entry.

  The kernel walks the batch in 32 blocks of 64 slabs. It marks a row by taking the maximum over the row of the 0/1
  indicator "entry ≠ 0" and testing it against zero, converts each mark to a real and adds the 128 reals of a slab.
  The reference marks a row by the disjunction of the bits "entry ≠ 0", adds a slab's 128 marks as 32-bit integers and
  converts the total. Both divisors are the count of live rows — as reals they agree because a sum of 0/1 reals
  counts the ones and a sum of at most 128 one-bit words does not wrap — and both numerators are the same sum over the
  rows (the reference's started from zero). So the two results are one function of the argument, entry by entry,
  with no appeal to the finiteness of the inputs: nothing is cancelled, distributed or reordered across an infinity.
  The kernel's idealization rewrote nothing, so that conjunct is trivial.
-/
import proofs.«172747_j90125593739319_1_alg».proof.Defs
import proofs.«172747_j90125593739319_1_alg».proof.Proof.Gen.Kernel
import proofs.«172747_j90125593739319_1_alg».proof.Proof.Gen.Kernel.Frame
import proofs.«172747_j90125593739319_1_alg».proof.Proof.Gen.KernelIdeal
import proofs.«172747_j90125593739319_1_alg».proof.Proof.Gen.KernelIdeal.Frame
import proofs.«172747_j90125593739319_1_alg».proof.Proof.Gen.ReferenceIdeal
import proofs.«172747_j90125593739319_1_alg».proof.Proof.Gen.Pre_finite_inputs
import proofs.«172747_j90125593739319_1_alg».proof.Proof.Gen.ReferenceIdeal.Run
import proofs.«172747_j90125593739319_1_alg».proof.Proof.Gen.ReferenceIdeal.Read
import proofs.«172747_j90125593739319_1_alg».proof.Proof.KernelArray
import proofs.«172747_j90125593739319_1_alg».proof.Proof.RefEntry
import Idealize.ShloMosaic.Adequacy
import Idealize.ShloMosaic.Init

noncomputable section

namespace Cert.Proof

open Idealize.ShloMosaic Idealize.ShloMosaic.TcCoe Idealize.SL.Sem

/-- The kernel as printed runs and leaves its argument alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the batch of means of the argument: the kernel block of rows by block of rows, the
    reference entry by entry, and the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Entry.result_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
